-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel

variable [Facts]

def fn {F : FTy → Type} [FloatOps F] (main_arg0 : FVec F S64x2048x512 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  main_v3
-- ==== Kernel.lean ====
abbrev S64x2048x512 : Shape := ⟨3, ![64, 2048, 512]⟩
abbrev S131072x512 : Shape := ⟨2, ![131072, 512]⟩
abbrev S4096x512 : Shape := ⟨2, ![4096, 512]⟩

abbrev nBuf : Space → Nat
  | .hbm => 4
  | .vmem => 4
  | .smem => 0
  | _ => 0

abbrev bufTy : (tb : Table) → Fin (tcTables nBuf tb) → BufTy
  | .hbm, ⟨0, _⟩ => ⟨S64x2048x512, .f32⟩
  | .hbm, ⟨1, _⟩ => ⟨S131072x512, .f32⟩
  | .hbm, ⟨2, _⟩ => ⟨S131072x512, .f32⟩
  | .hbm, ⟨3, _⟩ => ⟨S64x2048x512, .f32⟩
  | .local _ .vmem, ⟨0, _⟩ => ⟨S4096x512, .f32⟩
  | .local _ .vmem, ⟨1, _⟩ => ⟨S4096x512, .f32⟩
  | .local _ .vmem, ⟨2, _⟩ => ⟨S4096x512, .f32⟩
  | .local _ .vmem, ⟨3, _⟩ => ⟨S4096x512, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x2048x512_S131072x512 : S64x2048x512.ShapeCasts S131072x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S131072x512_S64x2048x512 : S131072x512.ShapeCasts S64x2048x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S131072x512.size a
  hwx0_1 : ∀ i : grid0.Coords, EltTy.bits .f32 = 32 ∨ (Rect.block (s := S131072x512) S4096x512.size (cc0_transform_1 i) (hinb0_1 i)).WholeWords (EltTy.packing .f32)

variable [Facts₀]

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S64x2048x512 : Shape := ⟨3, ![64, 2048, 512]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S_, .f32⟩
  | .hbm, ⟨2, _⟩ => ⟨S64x2048x512, .f32⟩
  | .hbm, ⟨3, _⟩ => ⟨S64x2048x512, .f32⟩
  | .hbm, ⟨4, _⟩ => ⟨S_, .f32⟩
  | .hbm, ⟨5, _⟩ => ⟨S64x2048x512, .f32⟩
  | .hbm, ⟨6, _⟩ => ⟨S64x2048x512, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S64x2048x512 : S_.BroadcastsInDim S64x2048x512 (![] : Fin 0 → Fin S64x2048x512.rank)

variable [Facts₀]

class Facts : Prop extends Facts₀ where

variable [Facts]
-- ==== Proof.Affine.lean ====
/-
  The function both programs compute: every entry v of a table goes to v·2 + 3 (the two float words are those of
  2.0 and 3.0, the same in both programs, and are never evaluated).

  The map acts on each entry by itself, so it does not care how the table is laid out: re-laying a table in row-major
  order (a [64, 2048, 512] table read as [131072, 512], or back) and then applying the map is the same as applying the
  map and then re-laying. Hence re-laying, mapping, and re-laying back is just mapping — which is all that separates
  a program that works on the re-laid table in row blocks from one that works on the table as given. No property of
  the numbers is used: the statements hold for any float model, finite entries or not.
-/
import Idealize.ShloMosaic.PureOps
import Idealize.ShloMosaic.Lib.Pipeline.Value

noncomputable section

namespace Cert.Affine

open Idealize.ShloMosaic

variable {F : FTy → Type} [FloatOps F]

/-- One entry: v ↦ v·2 + 3. -/
def affine1 (v : F .f32) : F .f32 :=
  FloatOps.addf (FloatOps.mulf v (FloatOps.ofBits .f32 0x40000000#32)) (FloatOps.ofBits .f32 0x40400000#32)

/-- A table of shape `s`, entry by entry. -/
def affine (s : Shape) (x : FVec F s .f32) : FVec F s .f32 := fun i => affine1 (x i)

theorem affine_apply (s : Shape) (x : FVec F s .f32) (i : s.Idx) : affine s x i = affine1 (x i) := rfl

/-- Mapping a re-laid table is re-laying the mapped table: entry j of either is the map of the entry of `x` that
    sits at j's row-major position. -/
theorem affine_shapeCast {s t : Shape} (x : FVec F s .f32) (h : s.ShapeCasts t) :
    affine t (shapeCast t x h) = shapeCast t (affine s x) h := rfl

/-- Re-lay, map, re-lay back: the map. -/
theorem shapeCast_affine_shapeCast {s t : Shape} (x : FVec F s .f32) (h : s.ShapeCasts t) (h' : t.ShapeCasts s) :
    shapeCast s (affine t (shapeCast t x h)) h' = affine s x := by
  rw [affine_shapeCast, shapeCast_shapeCast]

end Cert.Affine

end
-- ==== Proof.RefValue.lean ====
/-
  The reference, read entry by entry: it multiplies the argument by a table filled with the word of 2.0 and adds a
  table filled with the word of 3.0, so its result at index i is (x i)·2 + 3 — the entrywise map of Affine.lean on the
  [64, 2048, 512] table.
-/
import proofs.«139131_j73667279061103_2_alg».proof.Proof.Gen.ReferenceIdeal.Read
import proofs.«139131_j73667279061103_2_alg».proof.Proof.Affine

noncomputable section

namespace Cert.ReferenceIdeal.RefValue

open Cert.ReferenceIdeal Cert.ReferenceIdeal.Read Idealize.ShloMosaic Cert.Affine

variable {F : FTy → Type} [FloatOps F]

/-- The reference's result is the entrywise map v ↦ v·2 + 3 of its argument. -/
theorem result_eq (x : FVec F S64x2048x512 .f32) : val_main_v3 (F := F) x = affine S64x2048x512 x := by
  funext i
  rw [val_main_v3_apply, val_main_v1_apply, val_main_v0_apply, val_main_cst_apply, val_main_v2_apply,
    val_main_cst_0_apply]
  rfl

end Cert.ReferenceIdeal.RefValue

end
-- ==== Proof.KernelValue.lean ====
/-
  What the kernel's program leaves in its result, entry by entry.

  The program re-lays the [64, 2048, 512] argument as a [131072, 512] table (row-major order kept), copies it into
  the buffer the region works on, runs the body at 32 grid points, and re-lays the region's output back to
  [64, 2048, 512].  Point t reads rows 4096·t … 4096·t + 4095 (all 512 columns) of the re-laid table, maps every
  entry v to v·2 + 3, and writes the block to the same rows of the output.  The 32 row blocks tile the 131072 rows —
  row r lies in block r / 4096 — so the output is the entrywise map of the whole re-laid table, and re-laid back it is
  the entrywise map of the argument (Affine.lean).
-/
import proofs.«139131_j73667279061103_2_alg».proof.Proof.Gen.KernelIdeal.Frame
import proofs.«139131_j73667279061103_2_alg».proof.Proof.Affine
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Affine

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's arithmetic on a block: every entry v becomes v·2 + 3 (the cast to the block's own shape changes
    nothing). -/
theorem pay_eq (x0 : Vec F S4096x512 .f32) : k0_pay1 x0 = affine S4096x512 x0 := by
  unfold k0_pay1
  simp only [shapeCast_self]
  rfl

/-- The table the region reads: the argument re-laid as [131072, 512]. -/
theorem V_v0 (c : Dev nD) :
    (V m c main_v0 : FVec F S131072x512 .f32)
      = shapeCast S131072x512 (m ((c : Thread nD τ).loc main_arg0) : FVec F S64x2048x512 .f32)
          shapeCasts_S64x2048x512_S131072x512 := by
  show StableHlo.after hostOps0 (fun b => m (c, b)) (Proc.devRef .tc main_v0) = _
  after_results
  rfl

/-- Both windows' blocks at point t are rows 4096·t … of all columns: block index (t, 0). -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) ≤ 31
    ∧ win0_1.index t (1 : Fin 2) = 0 :=
  (by decide +kernel : ∀ t : Fin grid0.N, _)

/-- Every one of the 32 row blocks is some point's. -/
theorem idx_onto : ∀ q : Fin 32, ∃ t : Fin cfg0.N, win0_1.index t = ![q.val, 0] :=
  (by decide +kernel : ∀ q : Fin 32, ∃ t : Fin grid0.N, win0_1.index t = ![q.val, 0])

/-- What point t writes back is block t of the entrywise map of the re-laid table. -/
theorem flushed_eq (c : Dev nD) (t : Fin cfg0.N) :
    (dats m 0 c).flushed 1 t = ((cfg0.win 1).blk t).view.read (Elt F) (affine S131072x512 (V m c main_v0)) := by
  show (cfg0.win 1).cut (grid0.coords t) ((dats m 0 c).after 1 t) = _
  rw [after0_1]
  unfold out0_1
  rw [View.canon_unit_zero hz]
  simp only [View.ld_unit_zero (S := S4096x512) hz]
  rw [pay_eq]
  obtain ⟨e0, e1, e2, e3⟩ := idx_facts t
  funext j
  show affine1 (V m c main_v0 (((cfg0.win 0).blk t).view.emb j)) = affine1 (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 4096 + 1 * (j 0).val = win0_1.index t (0 : Fin 2) * 4096 + 1 * (j 0).val; omega
    | ⟨1, _⟩ => show win0_0.index t (1 : Fin 2) * 512 + 1 * (j 1).val = win0_1.index t (1 : Fin 2) * 512 + 1 * (j 1).val; omega
  rw [h0]

/-- An index of the [131072, 512] output is in point t's block iff its row and column are in the block's ranges. -/
theorem mem_blk (t : Fin cfg0.N) (i : S131072x512.Idx) :
    i ∈ ((cfg0.win 1).blk t).view.set ↔ ∀ a : Fin 2, win0_1.index t a * S4096x512.size a ≤ (i a).val ∧ (i a).val < win0_1.index t a * S4096x512.size a + S4096x512.size a := by
  show i ∈ ((View.whole main_v1).slice (win0_1.rect t)).set ↔ _
  rw [View.set_slice_whole, Rect.mem_set_unit]
  exact Iff.rfl

/-- The row blocks tile the output: row r is in the block of the point whose block index is r / 4096. -/
theorem cover (i : S131072x512.Idx) :
    ∃ t : Fin cfg0.N, (cfg0.win 1).flush t = true ∧ i ∈ ((cfg0.win 1).blk t).view.set := by
  have hi0 : (i 0).val < 131072 := (i 0).isLt
  have hi1 : (i 1).val < 512 := (i 1).isLt
  obtain ⟨t, ht⟩ := idx_onto ⟨(i 0).val / 4096, by omega⟩
  have q0 : win0_1.index t (0 : Fin 2) = (i 0).val / 4096 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 512 ≤ (i 1).val ∧ (i 1).val < win0_1.index t (1 : Fin 2) * 512 + 512; omega

/-- The region's output after the run: the entrywise map of the re-laid table. -/
theorem final (c : Dev nD) : (dats m 0 c).arrAt 1 cfg0.N = affine S131072x512 (V m c main_v0) :=
  (dats m 0 c).arrAt_eq_of_cover 1 (affine S131072x512 (V m c main_v0)) (fun t _ => flushed_eq m c t) cover

/-- The program's result: the region's output re-laid back, which is the entrywise map of the argument. -/
theorem result_eq (c : Dev nD) :
    Pipeline.afterTail₀ cfgs (dats m) 0 (V0 m) [hostOps1] c main_v2
      = affine S64x2048x512 (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = affine S131072x512 (V m c main_v0) :=
    (Pipeline.withArrays_arr spec0 launch0.win.arr_inj c _ _ 1).trans (final m c)
  show shapeCast S64x2048x512
      (Pipeline.withArrays (cfgs 0).spec c (V0 m c) (fun w => (dats m 0 c).arrAt w (cfgs 0).N) (Proc.devRef .tc main_v1))
      shapeCasts_S131072x512_S64x2048x512 = _
  rw [e, V_v0]
  exact shapeCast_affine_shapeCast _ _ _

/-- The run, read: every weakly fair execution ends with the result at the entrywise map of the argument and the
    argument as it was. -/
theorem run : θ_run defs (onTc (τ := τ) (main (F := F))) ⟨m, fun _ => 0, ρ⟩ fun r => ∀ c : Dev nD,
      r.2.mem ((c : Thread nD τ).loc main_v2) = affine S64x2048x512 (m ((c : Thread nD τ).loc main_arg0))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.Hand

end
-- ==== Proof.lean ====
/-
  Both programs send every entry v of a [64, 2048, 512] table of floats to v·2 + 3.

  The reference does it in one step on the table as given (Proof/RefValue.lean).  The kernel's program re-lays the
  table as [131072, 512], maps it in 32 blocks of 4096 rows, and re-lays the output back; since the map acts on each
  entry by itself, and the row blocks tile the re-laid table, that is the same function of the argument
  (Proof/KernelValue.lean over Proof/Affine.lean).  The two float words (2.0 and 3.0) are the same on both sides and
  the operations are applied in the same order, so nothing about the numbers is used: the equality holds at every
  extended real, and the precondition (finite inputs) is never opened.

  The three frames are the generated ones (the reference's is its generated run with the result dropped); the
  idealization rewrote no operation, so the conjunct that the idealized kernel is the kernel's sanctioned
  idealization is `True`.
-/
import proofs.«139131_j73667279061103_2_alg».proof.Defs
import proofs.«139131_j73667279061103_2_alg».proof.Proof.Gen.Kernel
import proofs.«139131_j73667279061103_2_alg».proof.Proof.Gen.Kernel.Frame
import proofs.«139131_j73667279061103_2_alg».proof.Proof.Gen.KernelIdeal
import proofs.«139131_j73667279061103_2_alg».proof.Proof.Gen.KernelIdeal.Frame
import proofs.«139131_j73667279061103_2_alg».proof.Proof.Gen.ReferenceIdeal
import proofs.«139131_j73667279061103_2_alg».proof.Proof.Gen.ReferenceIdeal.Run
import proofs.«139131_j73667279061103_2_alg».proof.Proof.Gen.ReferenceIdeal.Read
import proofs.«139131_j73667279061103_2_alg».proof.Proof.Gen.Pre_finite_inputs
import proofs.«139131_j73667279061103_2_alg».proof.Proof.Affine
import proofs.«139131_j73667279061103_2_alg».proof.Proof.RefValue
import proofs.«139131_j73667279061103_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the argument, the kernel's program ends with its result at the entrywise map
    v ↦ v·2 + 3 of the argument, and so does the reference: one function of one table. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v3_eq _).trans (Cert.ReferenceIdeal.RefValue.result_eq _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
